-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x32x32 : Shape := ⟨4, ![8, 256, 32, 32]⟩
abbrev S_ : Shape := ⟨0, ![]⟩

class Facts : Prop where
  bcast_S_S8x256x32x32 : S_.BroadcastsInDim S8x256x32x32 (![] : Fin 0 → Fin S8x256x32x32.rank)
  reducesTo_S8x256x32x32_S_d0_1_2_3 : S8x256x32x32.ReducesTo [0, 1, 2, 3] S_
  h_S_ : 0 < S_.numel

variable [Facts]

def fn {F : FTy → Type} [FloatOps F] (main_arg0 : FVec F S8x256x32x32 .f32) (main_arg1 : FVec F S8x256x32x32 .f32) : IVec S_ 1 :=
  let main_v0 : FVec F S8x256x32x32 .f32 := Host.absf main_arg0
  let main_cst : FVec F S_ .f32 := constant S_ .f32 0x7F800000#32
  let main_v1 : FVec F S8x256x32x32 .f32 := broadcastInDim S8x256x32x32 ![] bcast_S_S8x256x32x32 main_cst
  let main_v2 : IVec S8x256x32x32 1 := cmpf .olt main_v0 main_v1
  let main_c : IVec S_ 1 := constantI S_ 1 1#1
  let main_v3 : IVec S_ 1 := (fun x v => Host.reduce IntOp.andi x v reducesTo_S8x256x32x32_S_d0_1_2_3 h_S_) main_v2 main_c
  let main_v4 : FVec F S8x256x32x32 .f32 := Host.absf main_arg1
  let main_cst_0 : FVec F S_ .f32 := constant S_ .f32 0x7F800000#32
  let main_v5 : FVec F S8x256x32x32 .f32 := broadcastInDim S8x256x32x32 ![] bcast_S_S8x256x32x32 main_cst_0
  let main_v6 : IVec S8x256x32x32 1 := cmpf .olt main_v4 main_v5
  let main_c_1 : IVec S_ 1 := constantI S_ 1 1#1
  let main_v7 : IVec S_ 1 := (fun x v => Host.reduce IntOp.andi x v reducesTo_S8x256x32x32_S_d0_1_2_3 h_S_) main_v6 main_c_1
  let main_v8 : IVec S_ 1 := andi main_v3 main_v7
  main_v8
-- ==== Kernel.lean ====
abbrev S8x256x32x32 : Shape := ⟨4, ![8, 256, 32, 32]⟩
abbrev S64x32x1024 : Shape := ⟨3, ![64, 32, 1024]⟩
abbrev S64x128 : Shape := ⟨2, ![64, 128]⟩
abbrev S8x32x1024 : Shape := ⟨3, ![8, 32, 1024]⟩
abbrev S8x128 : Shape := ⟨2, ![8, 128]⟩
abbrev S1x1 : Shape := ⟨2, ![1, 1]⟩
abbrev S1x32x1024 : Shape := ⟨3, ![1, 32, 1024]⟩
abbrev S32x1024 : Shape := ⟨2, ![32, 1024]⟩
abbrev S1024x1024 : Shape := ⟨2, ![1024, 1024]⟩
abbrev S1024 : Shape := ⟨1, ![1024]⟩
abbrev S1024x1 : Shape := ⟨2, ![1024, 1]⟩
abbrev S32 : Shape := ⟨1, ![32]⟩
abbrev S32x1 : Shape := ⟨2, ![32, 1]⟩
abbrev S1 : Shape := ⟨1, ![1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S8x256x32x32, .f32⟩
  | .hbm, ⟨1, _⟩ => ⟨S8x256x32x32, .f32⟩
  | .hbm, ⟨2, _⟩ => ⟨S64x32x1024, .f32⟩
  | .hbm, ⟨3, _⟩ => ⟨S64x32x1024, .f32⟩
  | .hbm, ⟨4, _⟩ => ⟨S64x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8x32x1024, .f32⟩
  | .local _ .vmem, ⟨1, _⟩ => ⟨S8x32x1024, .f32⟩
  | .local _ .vmem, ⟨2, _⟩ => ⟨S8x32x1024, .f32⟩
  | .local _ .vmem, ⟨3, _⟩ => ⟨S8x32x1024, .f32⟩
  | .local _ .vmem, ⟨4, _⟩ => ⟨S8x128, .f32⟩
  | .local _ .vmem, ⟨5, _⟩ => ⟨S8x128, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_off1 (k0_t1 : Fin k0_t1_loop.trips) : Fin 3 → Nat :=
  let c0_i32 : BitVec 32 := 0#32
  let c1_i32 : BitVec 32 := 1#32
  let arg4 : BitVec 32 := Scf.iv c0_i32 c1_i32 k0_t1
  let v8 : Index := Scalar.indexCast arg4
  let c0_3 : Index := 0#32
  let c0_4 : Index := 0#32
  ![v8.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x256x32x32_S64x32x1024 : S8x256x32x32.ShapeCasts S64x32x1024
  h_S1x32x1024 : 0 < S1x32x1024.numel
  shapeCasts_S1x32x1024_S32x1024 : S1x32x1024.ShapeCasts S32x1024
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  reduces_S32x1024_S32 : S32x1024.Reduces [1] S32
  shapeCasts_S32_S32x1 : S32.ShapeCasts S32x1
  reduces_S32x1_S1 : S32x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S64x128_S_d0_1 : S64x128.ReducesTo [0, 1] S_
  h_S_ : 0 < S_.numel
  dot_S32x1024_S32x1024_S1024x1024_0_0_1_1_n_n_wf : DotDims.WF S32x1024 S32x1024 S1024x1024 [0] [0] [1] [1] [] []
  dot_S32x1024_S1024x1024_S32x1024_1_1_0_0_n_n_wf : DotDims.WF S32x1024 S1024x1024 S32x1024 [1] [1] [0] [0] [] []
  hrank0 : 0 < grid0.rank
  k0_t1_ok : k0_t1_loop.OK
  k0_off1_inb : ∀ k0_t1 : Fin k0_t1_loop.trips, ∀ a, (k0_off1 k0_t1) a + S1x32x1024.size a ≤ S8x32x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x1024.size a ≤ S64x32x1024.size a
  hwx0_0 : ∀ i : grid0.Coords, EltTy.bits .f32 = 32 ∨ (Rect.block (s := S64x32x1024) S8x32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x1024.size a ≤ S64x32x1024.size a
  hwx0_1 : ∀ i : grid0.Coords, EltTy.bits .f32 = 32 ∨ (Rect.block (s := S64x32x1024) S8x32x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)

variable [Facts₀]

def dot_S32x1024_S32x1024_S1024x1024_0_0_1_1_n_n : DotDims S32x1024 S32x1024 S1024x1024 where
  lhsContracting := [0]
  rhsContracting := [0]
  lhsNonContracting := [1]
  rhsNonContracting := [1]
  lhsBatch := []
  rhsBatch := []
  wf := dot_S32x1024_S32x1024_S1024x1024_0_0_1_1_n_n_wf
def dot_S32x1024_S1024x1024_S32x1024_1_1_0_0_n_n : DotDims S32x1024 S1024x1024 S32x1024 where
  lhsContracting := [1]
  rhsContracting := [1]
  lhsNonContracting := [0]
  rhsNonContracting := [0]
  lhsBatch := []
  rhsBatch := []
  wf := dot_S32x1024_S1024x1024_S32x1024_1_1_0_0_n_n_wf

abbrev win0_0 : Pipeline.Window sig grid0 :=
  Pipeline.Window.ofSpec (Memref.whole main_v0) S8x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x32x32 : Shape := ⟨4, ![8, 256, 32, 32]⟩
abbrev S8x8x32x1024 : Shape := ⟨4, ![8, 8, 32, 1024]⟩
abbrev S8x8x1024x32 : Shape := ⟨4, ![8, 8, 1024, 32]⟩
abbrev S8x8x1024x1024 : Shape := ⟨4, ![8, 8, 1024, 1024]⟩
abbrev S_ : Shape := ⟨0, ![]⟩
abbrev S8x8x1024 : Shape := ⟨3, ![8, 8, 1024]⟩
abbrev S8x8x1024x1 : Shape := ⟨4, ![8, 8, 1024, 1]⟩

abbrev nBuf : Space → Nat
  | .hbm => 32
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S8x256x32x32, .f32⟩
  | .hbm, ⟨2, _⟩ => ⟨S8x8x32x1024, .f32⟩
  | .hbm, ⟨3, _⟩ => ⟨S8x8x1024x32, .f32⟩
  | .hbm, ⟨4, _⟩ => ⟨S8x8x32x1024, .f32⟩
  | .hbm, ⟨5, _⟩ => ⟨S8x8x1024x32, .f32⟩
  | .hbm, ⟨6, _⟩ => ⟨S8x8x32x1024, .f32⟩
  | .hbm, ⟨7, _⟩ => ⟨S8x8x1024x32, .f32⟩
  | .hbm, ⟨8, _⟩ => ⟨S8x8x1024x1024, .f32⟩
  | .hbm, ⟨9, _⟩ => ⟨S_, .f32⟩
  | .hbm, ⟨10, _⟩ => ⟨S8x8x1024, .f32⟩
  | .hbm, ⟨11, _⟩ => ⟨S_, .f32⟩
  | .hbm, ⟨12, _⟩ => ⟨S8x8x1024, .f32⟩
  | .hbm, ⟨13, _⟩ => ⟨S8x8x1024, .f32⟩
  | .hbm, ⟨14, _⟩ => ⟨S8x8x1024x1, .f32⟩
  | .hbm, ⟨15, _⟩ => ⟨S8x8x1024x1024, .f32⟩
  | .hbm, ⟨16, _⟩ => ⟨S8x8x1024x1024, .f32⟩
  | .hbm, ⟨17, _⟩ => ⟨S8x8x1024x1024, .f32⟩
  | .hbm, ⟨18, _⟩ => ⟨S_, .f32⟩
  | .hbm, ⟨19, _⟩ => ⟨S8x8x1024, .f32⟩
  | .hbm, ⟨20, _⟩ => ⟨S8x8x1024x1, .f32⟩
  | .hbm, ⟨21, _⟩ => ⟨S8x8x1024x1024, .f32⟩
  | .hbm, ⟨22, _⟩ => ⟨S8x8x1024x1024, .f32⟩
  | .hbm, ⟨23, _⟩ => ⟨S8x8x1024x32, .f32⟩
  | .hbm, ⟨24, _⟩ => ⟨S8x8x32x1024, .f32⟩
  | .hbm, ⟨25, _⟩ => ⟨S8x256x32x32, .f32⟩
  | .hbm, ⟨26, _⟩ => ⟨S8x256x32x32, .f32⟩
  | .hbm, ⟨27, _⟩ => ⟨S8x256x32x32, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩

abbrev nD : Nat := 1
abbrev τ : Topo := Topo.v7x

variable {F : FTy → Type} [FloatOps F]

class Facts₀ : Prop where
  shapeCasts_S8x256x32x32_S8x8x32x1024 : S8x256x32x32.ShapeCasts S8x8x32x1024
  transposes_S8x8x32x1024_S8x8x1024x32_0_1_3_2 : S8x8x32x1024.Transposes [0, 1, 3, 2] S8x8x1024x32
  reducesTo_S8x8x1024x1024_S8x8x1024_d3 : S8x8x1024x1024.ReducesTo [3] S8x8x1024
  h_S_ : 0 < S_.numel
  bcast_S_S8x8x1024 : S_.BroadcastsInDim S8x8x1024 (![] : Fin 0 → Fin S8x8x1024.rank)
  bcast_S8x8x1024_S8x8x1024x1_0_1_2 : S8x8x1024.BroadcastsInDim S8x8x1024x1 (![0, 1, 2] : Fin 3 → Fin S8x8x1024x1.rank)
  bcast_S8x8x1024x1_S8x8x1024x1024_0_1_2_3 : S8x8x1024x1.BroadcastsInDim S8x8x1024x1024 (![0, 1, 2, 3] : Fin 4 → Fin S8x8x1024x1024.rank)
  transposes_S8x8x1024x32_S8x8x32x1024_0_1_3_2 : S8x8x1024x32.Transposes [0, 1, 3, 2] S8x8x32x1024
  shapeCasts_S8x8x32x1024_S8x256x32x32 : S8x8x32x1024.ShapeCasts S8x256x32x32
  reducesTo_S8x256x32x32_S_d0_1_2_3 : S8x256x32x32.ReducesTo [0, 1, 2, 3] S_
  dot_S8x8x1024x32_S8x8x1024x32_S8x8x1024x1024_3_3_2_2_01_01_wf : DotDims.WF S8x8x1024x32 S8x8x1024x32 S8x8x1024x1024 [3] [3] [2] [2] [0, 1] [0, 1]
  dot_S8x8x1024x1024_S8x8x1024x32_S8x8x1024x32_3_2_2_3_01_01_wf : DotDims.WF S8x8x1024x1024 S8x8x1024x32 S8x8x1024x32 [3] [2] [2] [3] [0, 1] [0, 1]

variable [Facts₀]

def dot_S8x8x1024x32_S8x8x1024x32_S8x8x1024x1024_3_3_2_2_01_01 : DotDims S8x8x1024x32 S8x8x1024x32 S8x8x1024x1024 where
  lhsContracting := [3]
  rhsContracting := [3]
  lhsNonContracting := [2]
  rhsNonContracting := [2]
  lhsBatch := [0, 1]
  rhsBatch := [0, 1]
  wf := dot_S8x8x1024x32_S8x8x1024x32_S8x8x1024x1024_3_3_2_2_01_01_wf
def dot_S8x8x1024x1024_S8x8x1024x32_S8x8x1024x32_3_2_2_3_01_01 : DotDims S8x8x1024x1024 S8x8x1024x32 S8x8x1024x32 where
  lhsContracting := [3]
  rhsContracting := [2]
  lhsNonContracting := [2]
  rhsNonContracting := [3]
  lhsBatch := [0, 1]
  rhsBatch := [0, 1]
  wf := dot_S8x8x1024x1024_S8x8x1024x32_S8x8x1024x32_3_2_2_3_01_01_wf

class Facts : Prop extends Facts₀ where

variable [Facts]
-- ==== Proof.KernelRun.lean ====
/-
  What the kernel body leaves in its output tile, as a function of its two input blocks.

  A body run carries one number through eight trips.  Trip `k` reads slab `k` of each input block (one head: 32 features
  by 1024 positions), and adds that head's contribution to the carried number; after the last trip the carried number,
  divided by the tile's size, is written to every entry of the 8 x 128 output tile.  Here the run's own record of this
  is opened: one trip is the loop body's arithmetic applied to the two slabs, the carried number is the recursion over
  the trips, and the tile is the final arithmetic of the carried number after the last trip.
-/
import proofs.«169583_j53412213293408_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.RunValue

open Cert.KernelIdeal Cert.KernelIdeal.Gen

variable {F : FTy → Type} [FloatOps F]

theorem zero_off2 : (![0, 0] : Fin 2 → Nat) = fun _ => 0 := funext fun a => by fin_cases a <;> rfl

/-- Slab `k` of an input block: the 1 x 32 x 1024 piece a trip loads. -/
abbrev slab (x : Vec F S8x32x1024 .f32) (k : Fin k0_t1_loop.trips) : Vec F S1x32x1024 .f32 :=
  View.ld x (Rect.unit (s := S8x32x1024) (k0_off1 k) S1x32x1024.size (k0_off1_inb k))

/-- One trip: the loop body's arithmetic of the carried number and the two slabs (the second block is loaded twice). -/
theorem trip_eq (c : Dev nD) (i : grid0.Coords) (a1 : Memref sig .tc .vmem S8x32x1024 .f32) (h1 : a1.IsWhole)
    (a2 : Memref sig .tc .vmem S8x32x1024 .f32) (h2 : a2.IsWhole) (a3 : Memref sig .tc .vmem S8x128 .f32) (h3 : a3.IsWhole)
    (x0 x1 : Vec F S8x32x1024 .f32) (k : Fin k0_t1_loop.trips) (acc : FVec F S1x1 .f32) :
    tripR_k0_t1 (F := F) Variants.none c none i a1 h1 a2 h2 a3 h3 (h1.unread x0) (h2.unread x1) k acc
      = k0_pay2 acc (slab x0 k) (slab x1 k) (slab x1 k) := by
  unfold tripR_k0_t1 trip_k0_t1
  dsimp only
  simp only [View.readAt_eq_ld, h1.read_unread, h2.read_unread]

/-- The carried number before trip `n`: zero, then one trip's arithmetic after another. -/
def carried (x0 x1 : Vec F S8x32x1024 .f32) : ℕ → FVec F S1x1 .f32
  | 0 => k0_pay1
  | n + 1 =>
    if h : n < k0_t1_loop.trips then k0_pay2 (carried x0 x1 n) (slab x0 ⟨n, h⟩) (slab x1 ⟨n, h⟩) (slab x1 ⟨n, h⟩)
    else carried x0 x1 n

/-- The run's carried value is that recursion. -/
theorem st_eq (c : Dev nD) (i : grid0.Coords) (a1 : Memref sig .tc .vmem S8x32x1024 .f32) (h1 : a1.IsWhole)
    (a2 : Memref sig .tc .vmem S8x32x1024 .f32) (h2 : a2.IsWhole) (a3 : Memref sig .tc .vmem S8x128 .f32) (h3 : a3.IsWhole)
    (x0 x1 : Vec F S8x32x1024 .f32) : ∀ n : ℕ,
    st_k0_t1 (F := F) Variants.none c none i a1 h1 a2 h2 a3 h3 (h1.unread x0) (h2.unread x1) k0_pay1 n = carried x0 x1 n
  | 0 => rfl
  | n + 1 => by
    rw [st_k0_t1.eq_2, st_eq c i a1 h1 a2 h2 a3 h3 x0 x1 n]
    unfold st_k0_t1Step
    rw [carried]
    by_cases h : n < k0_t1_loop.trips
    · rw [dif_pos h, dif_pos h]; exact trip_eq c i a1 h1 a2 h2 a3 h3 x0 x1 ⟨n, h⟩ _
    · rw [dif_neg h, dif_neg h]

/-- The output tile: the final arithmetic of the carried number after the last trip. -/
theorem out_eq (c : Dev nD) (i : grid0.Coords) (a1 : Memref sig .tc .vmem S8x32x1024 .f32) (h1 : a1.IsWhole)
    (a2 : Memref sig .tc .vmem S8x32x1024 .f32) (h2 : a2.IsWhole) (a3 : Memref sig .tc .vmem S8x128 .f32) (h3 : a3.IsWhole)
    (x0 x1 : Vec F S8x32x1024 .f32) :
    out0_A_2 c i a1 h1 a2 h2 a3 h3 x0 x1 = k0_pay3 (carried x0 x1 k0_t1_loop.trips) := by
  unfold out0_A_2
  rw [View.read_writes_eq_canon _ _ _ (cover0_A_2 c i a1 h1 a2 h2 a3 h3 x0 x1)]
  unfold kernelRun0_A
  dsimp only
  rw [View.canon_unit_zero zero_off2]
  exact congrArg k0_pay3 (st_eq c i a1 h1 a2 h2 a3 h3 x0 x1 _)

end Cert.KernelIdeal.RunValue

end
-- ==== Proof.KernelArray.lean ====
/-
  From the per-point output tiles to the kernel's result.

  The launch has 8 points.  Point `t` reads block `t` of each reshaped input (heads 8 t .. 8 t + 7, each 32 x 1024) and
  writes back tile `t` (rows 8 t .. 8 t + 7) of a 64 x 128 array; the tiles are disjoint and fill the array, so after
  the launch the array holds, at row r, what point r / 8 wrote at row r mod 8.  The host then sums the whole array and
  divides by the element count.  The reshaped inputs are the argument arrays read row-major: head 8 t + k, feature d,
  position i of the reshaped array is channel 32 k + d, row i / 32, column i mod 32 of batch entry t.
-/
import proofs.«169583_j53412213293408_2_alg».proof.Proof.KernelRun
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.ArrayValue

open Cert.KernelIdeal Cert.KernelIdeal.Gen Cert.KernelIdeal.RunValue

variable {F : FTy → Type} [FloatOps F]
variable (m : (ℓ : Loc nD τ sig) → Buf (Elt F) ℓ) (ρ : Dev nD → PrngReg)

/-- The three index maps over the grid: each window's block at point `t` is block `t` along the leading axis. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The region finds the first reshaped input as the first argument read row-major. -/
theorem entry_v0 (c : Dev nD) : (V m c main_v0 : S64x32x1024.Idx → Elt F .f32)
    = shapeCast S64x32x1024 (m ((c : Thread nD τ).loc main_arg0)) shapeCasts_S8x256x32x32_S64x32x1024 := by
  show StableHlo.after hostOps0 (fun b => m (c, b)) (Proc.devRef .tc main_v0) = _
  after_results
  rfl

/-- The region finds the second reshaped input as the second argument read row-major. -/
theorem entry_v1 (c : Dev nD) : (V m c main_v1 : S64x32x1024.Idx → Elt F .f32)
    = shapeCast S64x32x1024 (m ((c : Thread nD τ).loc main_arg1)) shapeCasts_S8x256x32x32_S64x32x1024 := by
  show StableHlo.after hostOps0 (fun b => m (c, b)) (Proc.devRef .tc main_v1) = _
  after_results
  rfl

/-- The grid has 8 points. -/
theorem point_lt (t : Fin cfg0.N) : t.val < 8 := by have := t.isLt; have h : cfg0.N = 8 := N_0; omega

/-- The loop makes 8 trips. -/
theorem trips_eq : k0_t1_loop.trips = 8 := by decide

/-- Entry `(0, d, i)` of slab `k` of a block is entry `(k, d, i)` of the block. -/
theorem slab_apply (x : Vec F S8x32x1024 .f32) (k : Fin k0_t1_loop.trips) (k' : Fin 8) (hk : k'.val = k.val) (d : Fin 32) (i : Fin 1024) :
    slab x k (ix3 (0 : Fin 1) d i) = x (ix3 k' d i) := by
  have e0 : k0_off1 k 0 = k.val := by rw [k0_off1_eq]; rfl
  have e1 : k0_off1 k 1 = 0 := by rw [k0_off1_eq]; rfl
  have e2 : k0_off1 k 2 = 0 := by rw [k0_off1_eq]; rfl
  show x ((Rect.unit (s := S8x32x1024) (k0_off1 k) S1x32x1024.size (k0_off1_inb k)).emb (ix3 (0 : Fin 1) d i)) = _
  congr 1
  funext a
  apply Fin.ext
  rw [Rect.emb_apply, Rect.off_unit, Rect.stride_unit]
  match a with
  | ⟨0, _⟩ => show k0_off1 k 0 + 1 * 0 = k'.val; omega
  | ⟨1, _⟩ => show k0_off1 k 1 + 1 * d.val = d.val; omega
  | ⟨2, _⟩ => show k0_off1 k 2 + 1 * i.val = i.val; omega

/-- Block `t` of the first window at `(k, d, i)` is head `8 t + k` of the first reshaped input at `(d, i)`. -/
theorem iblk0_apply (c : Dev nD) (t : Fin cfg0.N) (k : Fin 8) (d : Fin 32) (i : Fin 1024) :
    (iblk m c 0 t : Vec F S8x32x1024 .f32) (ix3 k d i)
      = (V m c main_v0 : S64x32x1024.Idx → Elt F .f32) (ix3 ⟨8 * t.val + k.val, by have := point_lt t; have := k.isLt; omega⟩ d i) := by
  obtain ⟨e0, e1, e2, -⟩ := index_facts t
  unfold iblk
  rw [View.read_apply]
  show V m c main_v0 _ = V m c main_v0 _
  congr 1
  funext a
  apply Fin.ext
  match a with
  | ⟨0, _⟩ => show win0_0.index t 0 * 8 + 1 * k.val = 8 * t.val + k.val; rw [e0]; omega
  | ⟨1, _⟩ => show win0_0.index t 1 * 32 + 1 * d.val = d.val; rw [e1]; omega
  | ⟨2, _⟩ => show win0_0.index t 2 * 1024 + 1 * i.val = i.val; rw [e2]; omega

/-- Block `t` of the second window likewise. -/
theorem iblk1_apply (c : Dev nD) (t : Fin cfg0.N) (k : Fin 8) (d : Fin 32) (i : Fin 1024) :
    (iblk m c 1 t : Vec F S8x32x1024 .f32) (ix3 k d i)
      = (V m c main_v1 : S64x32x1024.Idx → Elt F .f32) (ix3 ⟨8 * t.val + k.val, by have := point_lt t; have := k.isLt; omega⟩ d i) := by
  obtain ⟨-, -, -, e0, e1, e2, -⟩ := index_facts t
  unfold iblk
  rw [View.read_apply]
  show V m c main_v1 _ = V m c main_v1 _
  congr 1
  funext a
  apply Fin.ext
  match a with
  | ⟨0, _⟩ => show win0_1.index t 0 * 8 + 1 * k.val = 8 * t.val + k.val; rw [e0]; omega
  | ⟨1, _⟩ => show win0_1.index t 1 * 32 + 1 * d.val = d.val; rw [e1]; omega
  | ⟨2, _⟩ => show win0_1.index t 2 * 1024 + 1 * i.val = i.val; rw [e2]; omega

/-- The row-major reshape [8, 256, 32, 32] -> [64, 32, 1024] at head `8 g + k`, feature `d`, position `i` reads the array
    at batch entry `g`, channel `32 k + d`, row `i / 32`, column `i mod 32`. -/
theorem reshape_apply (X : S8x256x32x32.Idx → Elt F .f32) (g k : Fin 8) (d : Fin 32) (i : Fin 1024) (j : S8x256x32x32.Idx)
    (h0 : (j 0).val = g.val) (h1 : (j 1).val = 32 * k.val + d.val) (h2 : (j 2).val = i.val / 32) (h3 : (j 3).val = i.val % 32) :
    shapeCast S64x32x1024 X shapeCasts_S8x256x32x32_S64x32x1024
        (ix3 ⟨8 * g.val + k.val, by have := g.isLt; have := k.isLt; omega⟩ d i) = X j := by
  refine shapeCast_apply X shapeCasts_S8x256x32x32_S64x32x1024 _ j ?_
  rewrite [Shape.rowMajor_val_three, Shape.rowMajor_val_four]
  have hg := g.isLt; have hk := k.isLt; have hd := d.isLt; have hi := i.isLt
  show (((j 0).val * 256 + (j 1).val) * 32 + (j 2).val) * 32 + (j 3).val = ((8 * g.val + k.val) * 32 + d.val) * 1024 + i.val
  rw [h0, h1, h2, h3]
  omega

/-! ## The result array after the launch -/

/-- The 64 x 128 array the tiles fill: row `r` is row `r mod 8` of the tile point `r / 8` leaves. -/
def tiled (c : Dev nD) : S64x128.Idx → Elt F .f32 := fun j =>
  outsAt0 m c ⟨(j 0).val / 8, by have h0 : (j 0).val < 64 := (j 0).isLt; have h : cfg0.N = 8 := N_0; omega⟩
    (ix2 (n0 := 8) (n1 := 128) ⟨(j 0).val % 8, by omega⟩ ⟨(j 1).val, (j 1).isLt⟩)

/-- What point `t` writes back is tile `t` of that array. -/
theorem flushed_eq (c : Dev nD) (t : Fin cfg0.N) :
    (dats m 0 c).flushed 2 t = ((cfg0.win 2).blk t).view.read (Elt F) (tiled m c) := by
  show (cfg0.win 2).cut (grid0.coords t) ((dats m 0 c).after 2 t) = _
  rw [after0_2]
  obtain ⟨-, -, -, -, -, -, e0, e1⟩ := index_facts t
  have ht := point_lt t
  funext y
  show outsAt0 m c t y = tiled m c (((cfg0.win 2).blk t).view.emb y)
  have hy0 : (y 0).val < 8 := (y 0).isLt
  have hy1 : (y 1).val < 128 := (y 1).isLt
  have h0 : (((cfg0.win 2).blk t).view.emb y 0).val = win0_2.index t 0 * 8 + 1 * (y 0).val := rfl
  have h1 : (((cfg0.win 2).blk t).view.emb y 1).val = win0_2.index t 1 * 128 + 1 * (y 1).val := rfl
  unfold tiled
  refine (congrArg₂ (fun (t' : Fin cfg0.N) (y' : S8x128.Idx) => outsAt0 m c t' y') (Fin.ext ?_) (funext fun a => Fin.ext ?_)).symm
  · show (((cfg0.win 2).blk t).view.emb y 0).val / 8 = t.val
    rw [h0, e0]; omega
  · match a with
    | ⟨0, _⟩ => show (((cfg0.win 2).blk t).view.emb y 0).val % 8 = (y 0).val; rw [h0, e0]; omega
    | ⟨1, _⟩ => show (((cfg0.win 2).blk t).view.emb y 1).val = (y 1).val; rw [h1, e1]; omega

/-- An index of the array is in point `t`'s tile iff each coordinate is in the tile's range on its axis. -/
theorem mem_tile (t : Fin cfg0.N) (j : S64x128.Idx) :
    j ∈ ((cfg0.win 2).blk t).view.set ↔ ∀ a : Fin 2, win0_2.index t a * S8x128.size a ≤ (j a).val ∧ (j a).val < win0_2.index t a * S8x128.size a + S8x128.size a := by
  show j ∈ ((View.whole main_v2).slice (win0_2.rect t)).set ↔ _
  rw [View.set_slice_whole, Rect.mem_set_unit]
  exact Iff.rfl

/-- Every index of the array is in the tile of the point its row names. -/
theorem cover (j : S64x128.Idx) : ∃ t : Fin cfg0.N, (cfg0.win 2).flush t = true ∧ j ∈ ((cfg0.win 2).blk t).view.set := by
  have h0 : (j 0).val < 64 := (j 0).isLt
  have h1 : (j 1).val < 128 := (j 1).isLt
  have hN : cfg0.N = 8 := N_0
  obtain ⟨-, -, -, -, -, -, e0, e1⟩ := index_facts ⟨(j 0).val / 8, by omega⟩
  refine ⟨⟨(j 0).val / 8, by omega⟩, flush0_2 _, ?_⟩
  rw [mem_tile]
  intro a
  match a with
  | ⟨0, _⟩ =>
    show win0_2.index ⟨(j 0).val / 8, _⟩ 0 * 8 ≤ (j 0).val ∧ (j 0).val < win0_2.index ⟨(j 0).val / 8, _⟩ 0 * 8 + 8
    rw [e0]; dsimp only; omega
  | ⟨1, _⟩ =>
    show win0_2.index ⟨(j 0).val / 8, _⟩ 1 * 128 ≤ (j 1).val ∧ (j 1).val < win0_2.index ⟨(j 0).val / 8, _⟩ 1 * 128 + 128
    rw [e1]; omega

/-- So the result array ends holding the tiles. -/
theorem final (c : Dev nD) : (dats m 0 c).arrAt 2 cfg0.N = tiled m c :=
  (dats m 0 c).arrAt_eq_of_cover 2 (tiled m c) (fun t _ => flushed_eq m c t) (cover)

/-! ## The host's sum and quotient -/

/-- The kernel's result: the tiled array summed over all its entries, divided by the element count. -/
def result (c : Dev nD) : Buf (Elt F) ((c : Thread nD τ).loc main_v4) :=
  Host.divf (Host.reduceAdd (tiled m c) (constant S_ .f32 0x00000000#32) reducesTo_S64x128_S_d0_1 h_S_) (constant S_ .f32 0x4A000000#32)

/-- The operations after the launch compute it from the launch's array. -/
theorem tail_eq (c : Dev nD) : Pipeline.afterTail₀ cfgs (dats m) 0 (V0 m) [hostOps1] c main_v4 = result m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2)
      = tiled m c := (Pipeline.withArrays_arr spec0 launch0.win.arr_inj c _ _ 2).trans (final m c)
  unfold result
  rw [e]

/-- The run, read: the result buffer at the tiled array's sum over the element count, the arguments unchanged. -/
theorem run : θ_run defs (onTc (τ := τ) (main (F := F))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.ArrayValue

end
-- ==== Proof.AttnSpec.lean ====
/-
  What both programs compute, as one function of the two input arrays over the extended reals.

  The inputs are two arrays of shape [8, 256, 32, 32].  Read as 8 x 8 heads, each a matrix with 32 rows (the
  feature axis) and 1024 columns (the 32 x 32 positions, row-major), head (g, h) of an array holds rows
  32 h .. 32 h + 31 of batch entry g.  For one head, with q the head of the first array and k the head of the second:

    sim i j    = sum over the 32 features d of q d i * k d j          (scores of position i against position j)
    rowMax i   = the maximum over j of sim i j, started from -inf
    expo i j   = exp (sim i j - rowMax i)
    rowSum i   = sum over j of expo i j
    weight i j = expo i j / rowSum i                                   (the softmax of row i)
    attend d i = sum over j of q d j * weight i j                      (the values are q again)
    sqErr d i  = (attend d i - k d i) squared                          (the target is k)

  The result is the sum of sqErr over all heads, features and positions, divided by the number 2^21 of elements.
-/
import Idealize.ShloMosaic.PureOps.Ideal
import Idealize.ShloMosaic.PureOps.Ideal.Laws
import Idealize.ShloMosaic.Lib.ValueIdx

noncomputable section

namespace Cert.AttnSpec

open Idealize.ShloMosaic Idealize.ShloMosaic.ValueIdx

/-- The word both programs start a row maximum from (the pattern of -inf). -/
abbrev negInfW : EReal := Ideal.ofBits .f32 0xFF800000#32
/-- The word both programs start a sum from (the pattern of 0). -/
abbrev zeroW : EReal := Ideal.ofBits .f32 0x00000000#32
/-- The pattern of 1024, the number of entries of one output tile. -/
abbrev tileW : EReal := Ideal.ofBits .f32 0x44800000#32
/-- The pattern of 2^21, the number of elements of an input array. -/
abbrev countW : EReal := Ideal.ofBits .f32 0x4A000000#32

section head

variable (q k : Fin 32 → Fin 1024 → EReal)

/-- The score of position `i` against position `j`. -/
def sim (i j : Fin 1024) : EReal := ∑ d : Fin 32, q d i * k d j
/-- The largest score of row `i`. -/
def rowMax (i : Fin 1024) : EReal := (Finset.univ : Finset (Fin 1024)).fold max negInfW (fun j => sim q k i j)
/-- The exponential of a score, shifted by its row's maximum. -/
def expo (i j : Fin 1024) : EReal := Ideal.exp (sim q k i j - rowMax q k i)
/-- The sum of row `i`'s exponentials. -/
def rowSum (i : Fin 1024) : EReal := ∑ j : Fin 1024, expo q k i j
/-- The softmax weight of position `j` in row `i`. -/
def weight (i j : Fin 1024) : EReal := Ideal.div (expo q k i j) (rowSum q k i)
/-- Feature `d` of the attention output at position `i`: the values are `q`. -/
def attend (d : Fin 32) (i : Fin 1024) : EReal := ∑ j : Fin 1024, q d j * weight q k i j
/-- The squared error against the target `k`. -/
def sqErr (d : Fin 32) (i : Fin 1024) : EReal := (attend q k d i - k d i) * (attend q k d i - k d i)
/-- One head's sum of squared errors. -/
def headLoss : EReal := ∑ d : Fin 32, ∑ i : Fin 1024, sqErr q k d i

end head

/-- The shape of the two input arrays. -/
abbrev A4 : Shape := ⟨4, ![8, 256, 32, 32]⟩

/-- Where head `(g, h)`'s entry `(d, i)` sits in an input array: channel `32 h + d`, position `i` as a row and a column. -/
def headIdx (g h : Fin 8) (d : Fin 32) (i : Fin 1024) : A4.Idx :=
  ix4 (n0 := 8) (n1 := 256) (n2 := 32) (n3 := 32) g
    ⟨32 * h.val + d.val, by have := h.isLt; have := d.isLt; omega⟩
    ⟨i.val / 32, by have := i.isLt; omega⟩
    ⟨i.val % 32, by have := i.isLt; omega⟩

/-- Head `(g, h)` of an input array, as a 32 x 1024 matrix. -/
def headOf (X : A4.Idx → EReal) (g h : Fin 8) : Fin 32 → Fin 1024 → EReal := fun d i => X (headIdx g h d i)

/-- The sum of squared errors over all 64 heads. -/
def total (X0 X1 : A4.Idx → EReal) : EReal := ∑ g : Fin 8, ∑ h : Fin 8, headLoss (headOf X0 g h) (headOf X1 g h)

/-- The mean squared error. -/
def loss (X0 X1 : A4.Idx → EReal) : EReal := Ideal.div (zeroW + total X0 X1) countW

end Cert.AttnSpec

end
-- ==== Proof.HeadPayload.lean ====
/-
  The arithmetic of one trip of the kernel's loop, read at the extended reals.

  One trip loads head h of the two blocks, a [1, 32, 1024] slab each (32 features, 1024 positions), and adds to the
  running sum the head's sum of squared errors:

    scores   = q^T k                       a 1024 x 1024 matrix, contracted over the 32 features
    rowMax   = the maximum of each row, started from -inf
    expo     = exp (scores - rowMax)       the maximum spread along the row
    rowSum   = the sum of each row of expo
    weight   = expo / rowSum               the row sum spread along the row
    attend   = q weight^T                  a 32 x 1024 matrix, contracted over the 1024 positions j
    sqErr    = (attend - k) squared
    the sum of sqErr over the positions, then over the features.

  The narrowing to bf16 in front of each product is the identity on extended reals, and the casts between [n] and
  [n, 1] and between [1, 32, 1024] and [32, 1024] move no element.  Each operation that is not elementwise is read at an
  index in a lemma of its own, over an arbitrary operand; the last theorems chain them.
-/
import proofs.«169583_j53412213293408_2_alg».proof.Proof.Gen.KernelIdeal.Skeleton
import proofs.«169583_j53412213293408_2_alg».proof.Proof.AttnSpec
import Idealize.ShloMosaic.Lib.ValueLayout
import Idealize.ShloMosaic.PureOps.Ideal.Laws

noncomputable section

namespace Cert.HeadPayload

open Cert.KernelIdeal Cert.KernelIdeal.Gen Idealize.ShloMosaic Idealize.ShloMosaic.ValueIdx

/-! ## Layout: a vector kept as a column, and a column spread along the lanes -/

section Layout
variable {α : Type}

/-- An `[a]` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector kept as a column and spread along the lanes reads, at `(p, c)`, the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Layout

/-! ## The reductions, read at an index -/

/-- The index a reduction over the lanes of a matrix inserts the lane into. -/
theorem lift_lane {a b : ℕ} (h : (⟨2, ![a, b]⟩ : Shape).Reduces [1] ⟨1, ![a]⟩) (i : Fin a) (j : Fin b) :
    h.lift (ix1 i) j = ix2 i j :=
  funext fun c => Fin.ext (by match c with | ⟨0, _⟩ => rfl | ⟨1, _⟩ => rfl)

/-- The index a reduction over the rows of a matrix inserts the row into. -/
theorem lift_row {a b : ℕ} (h : (⟨2, ![a, b]⟩ : Shape).Reduces [0] ⟨1, ![b]⟩) (j : Fin b) (i : Fin a) :
    h.lift (ix1 j) i = ix2 i j :=
  funext fun c => Fin.ext (by match c with | ⟨0, _⟩ => rfl | ⟨1, _⟩ => rfl)

/-- The maximum over the lanes of a matrix, at row `i`: the fold of `max` over the row from the accumulator's value. -/
theorem laneMax_apply {a b : ℕ} (x : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction (F := Ideal) .maximumf [1] ⟨1, ![a]⟩ x acc h hφ hacc (ix1 i)
      = (Finset.univ : Finset (Fin b)).fold max (Ideal.ofBits .f32 acc) (fun j => x (ix2 i j)) := by
  refine (Ideal.multiReduction_maximumf_single x acc h hφ hacc (ix1 i)).trans ?_
  exact congrArg (fun f => (Finset.univ : Finset (Fin b)).fold max (Ideal.ofBits .f32 acc) f)
    (funext fun j => congrArg x (lift_lane h i j))

/-- The sum over the lanes of a matrix, at row `i`. -/
theorem laneSum_apply {a b : ℕ} (x : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (i : Fin a) :
    multiReduction (F := Ideal) .add [1] ⟨1, ![a]⟩ x acc h hφ hacc (ix1 i) = ∑ j : Fin b, x (ix2 i j) := by
  refine (Ideal.multiReduction_add_single x acc h hφ hacc (ix1 i)).trans ?_
  exact Finset.sum_congr rfl fun j _ => congrArg x (lift_lane h i j)

/-- The sum over the rows of a matrix, at lane `j`. -/
theorem rowSum_apply {a b : ℕ} (x : FVec Ideal ⟨2, ![a, b]⟩ .f32) (acc : BitVec 32)
    (h : (⟨2, ![a, b]⟩ : Shape).Reduces [0] ⟨1, ![b]⟩) (hφ : FKind.Formats .f32)
    (hacc : acc = FKind.add.neutral .f32 hφ) (j : Fin b) :
    multiReduction (F := Ideal) .add [0] ⟨1, ![b]⟩ x acc h hφ hacc (ix1 j) = ∑ i : Fin a, x (ix2 i j) := by
  refine (Ideal.multiReduction_add_single x acc h hφ hacc (ix1 j)).trans ?_
  exact Finset.sum_congr rfl fun i _ => congrArg x (lift_row h j i)

/-! ## The two products, read at an index -/

/-- The score product's left operand, on its position axis, reads the result's row. -/
theorem scores_lhs_1 (y : S1024x1024.Idx) (c : dot_S32x1024_S32x1024_S1024x1024_0_0_1_1_n_n.contr.Idx) :
    (dot_S32x1024_S32x1024_S1024x1024_0_0_1_1_n_n.lhsIdx y c 1).val = (y 0).val := by
  unfold DotDims.lhsIdx
  rw [dif_neg (show ¬(1 : Fin S32x1024.rank) ∈ dot_S32x1024_S32x1024_S1024x1024_0_0_1_1_n_n.lhsBatch by decide),
    dif_pos (show (1 : Fin S32x1024.rank) ∈ dot_S32x1024_S32x1024_S1024x1024_0_0_1_1_n_n.lhsNonContracting by decide)]
  rfl
/-- Its right operand, on its position axis, reads the result's column. -/
theorem scores_rhs_1 (y : S1024x1024.Idx) (c : dot_S32x1024_S32x1024_S1024x1024_0_0_1_1_n_n.contr.Idx) :
    (dot_S32x1024_S32x1024_S1024x1024_0_0_1_1_n_n.rhsIdx y c 1).val = (y 1).val := by
  unfold DotDims.rhsIdx
  rw [dif_neg (show ¬(1 : Fin S32x1024.rank) ∈ dot_S32x1024_S32x1024_S1024x1024_0_0_1_1_n_n.rhsBatch by decide),
    dif_pos (show (1 : Fin S32x1024.rank) ∈ dot_S32x1024_S32x1024_S1024x1024_0_0_1_1_n_n.rhsNonContracting by decide)]
  rfl

/-- The scores: the product contracting the feature axis of both operands, at `(i, j)`, is the sum over the 32 features. -/
theorem scores_apply (q k : FVec Ideal S32x1024 .bf16) (i j : Fin 1024) :
    matmul dot_S32x1024_S32x1024_S1024x1024_0_0_1_1_n_n none q k (constant (F := Ideal) S1024x1024 .f32 0x00000000#32) (ix2 i j)
      = ∑ d : Fin 32, q (ix2 d i) * k (ix2 d j) := by
  simp only [matmul]
  rw [Ideal.matmul_constant_zero_apply,
    ← Equiv.sum_comp (contrEquiv1 dot_S32x1024_S32x1024_S1024x1024_0_0_1_1_n_n 32 rfl rfl).symm]
  refine Finset.sum_congr rfl fun d _ => ?_
  have hd := contrEquiv1_symm_val dot_S32x1024_S32x1024_S1024x1024_0_0_1_1_n_n 32 rfl rfl d
  have el : dot_S32x1024_S32x1024_S1024x1024_0_0_1_1_n_n.lhsIdx (ix2 i j)
      ((contrEquiv1 dot_S32x1024_S32x1024_S1024x1024_0_0_1_1_n_n 32 rfl rfl).symm d) = ix2 d i :=
    funext fun a => Fin.ext (by
      match a with
      | ⟨0, _⟩ => exact (dot_S32x1024_S32x1024_S1024x1024_0_0_1_1_n_n.lhsIdx_val_of_single rfl _ _).trans hd
      | ⟨1, _⟩ => exact scores_lhs_1 _ _)
  have er : dot_S32x1024_S32x1024_S1024x1024_0_0_1_1_n_n.rhsIdx (ix2 i j)
      ((contrEquiv1 dot_S32x1024_S32x1024_S1024x1024_0_0_1_1_n_n 32 rfl rfl).symm d) = ix2 d j :=
    funext fun a => Fin.ext (by
      match a with
      | ⟨0, _⟩ => exact (dot_S32x1024_S32x1024_S1024x1024_0_0_1_1_n_n.rhsIdx_val_of_single rfl _ _).trans hd
      | ⟨1, _⟩ => exact scores_rhs_1 _ _)
  rw [el, er]

/-- The output product's left operand, on its feature axis, reads the result's row. -/
theorem attend_lhs_0 (y : S32x1024.Idx) (c : dot_S32x1024_S1024x1024_S32x1024_1_1_0_0_n_n.contr.Idx) :
    (dot_S32x1024_S1024x1024_S32x1024_1_1_0_0_n_n.lhsIdx y c 0).val = (y 0).val := by
  unfold DotDims.lhsIdx
  rw [dif_neg (show ¬(0 : Fin S32x1024.rank) ∈ dot_S32x1024_S1024x1024_S32x1024_1_1_0_0_n_n.lhsBatch by decide),
    dif_pos (show (0 : Fin S32x1024.rank) ∈ dot_S32x1024_S1024x1024_S32x1024_1_1_0_0_n_n.lhsNonContracting by decide)]
  rfl
/-- Its right operand, on its row axis, reads the result's column. -/
theorem attend_rhs_0 (y : S32x1024.Idx) (c : dot_S32x1024_S1024x1024_S32x1024_1_1_0_0_n_n.contr.Idx) :
    (dot_S32x1024_S1024x1024_S32x1024_1_1_0_0_n_n.rhsIdx y c 0).val = (y 1).val := by
  unfold DotDims.rhsIdx
  rw [dif_neg (show ¬(0 : Fin S1024x1024.rank) ∈ dot_S32x1024_S1024x1024_S32x1024_1_1_0_0_n_n.rhsBatch by decide),
    dif_pos (show (0 : Fin S1024x1024.rank) ∈ dot_S32x1024_S1024x1024_S32x1024_1_1_0_0_n_n.rhsNonContracting by decide)]
  rfl

/-- The attention output: the product contracting the position axis `j` of both operands, at `(d, i)`, is the sum over the
    1024 positions. -/
theorem attend_apply (q : FVec Ideal S32x1024 .bf16) (w : FVec Ideal S1024x1024 .bf16) (d : Fin 32) (i : Fin 1024) :
    matmul dot_S32x1024_S1024x1024_S32x1024_1_1_0_0_n_n none q w (constant (F := Ideal) S32x1024 .f32 0x00000000#32) (ix2 d i)
      = ∑ j : Fin 1024, q (ix2 d j) * w (ix2 i j) := by
  simp only [matmul]
  rw [Ideal.matmul_constant_zero_apply,
    ← Equiv.sum_comp (contrEquiv1 dot_S32x1024_S1024x1024_S32x1024_1_1_0_0_n_n 1024 rfl rfl).symm]
  refine Finset.sum_congr rfl fun j _ => ?_
  have hj := contrEquiv1_symm_val dot_S32x1024_S1024x1024_S32x1024_1_1_0_0_n_n 1024 rfl rfl j
  have el : dot_S32x1024_S1024x1024_S32x1024_1_1_0_0_n_n.lhsIdx (ix2 d i)
      ((contrEquiv1 dot_S32x1024_S1024x1024_S32x1024_1_1_0_0_n_n 1024 rfl rfl).symm j) = ix2 d j :=
    funext fun a => Fin.ext (by
      match a with
      | ⟨0, _⟩ => exact attend_lhs_0 _ _
      | ⟨1, _⟩ => exact (dot_S32x1024_S1024x1024_S32x1024_1_1_0_0_n_n.lhsIdx_val_of_single rfl _ _).trans hj)
  have er : dot_S32x1024_S1024x1024_S32x1024_1_1_0_0_n_n.rhsIdx (ix2 d i)
      ((contrEquiv1 dot_S32x1024_S1024x1024_S32x1024_1_1_0_0_n_n 1024 rfl rfl).symm j) = ix2 i j :=
    funext fun a => Fin.ext (by
      match a with
      | ⟨0, _⟩ => exact attend_rhs_0 _ _
      | ⟨1, _⟩ => exact (dot_S32x1024_S1024x1024_S32x1024_1_1_0_0_n_n.rhsIdx_val_of_single rfl _ _).trans hj)
  rw [el, er]

/-! ## One trip's arithmetic, stage by stage

The kernel's values, named in the order it computes them, each read at an index as the specification's function of the
two heads. -/

section Trip
open Cert.AttnSpec

/-- The exponential of a vector reads, at an index, the exponential of the element. -/
theorem exp_apply {s : Shape} {φ : FTy} (x : FVec Ideal s φ) (i : s.Idx) : exp x i = Ideal.exp (x i) := rfl

/-- A loaded `[1, 32, 1024]` block as a matrix of 32 features by 1024 positions. -/
abbrev blockMat (a : Vec Ideal S1x32x1024 .f32) : Fin 32 → Fin 1024 → EReal := fun d i => a (ix3 (0 : Fin 1) d i)

variable (a b b' : Vec Ideal S1x32x1024 .f32)

/-- A block as the kernel multiplies it: its unit axis dropped, narrowed to bf16. -/
def kOperand : FVec Ideal S32x1024 .bf16 :=
  truncf .bf16 (shapeCast S32x1024 a shapeCasts_S1x32x1024_S32x1024) bitsLt_bf16_f32

theorem kOperand_apply (d : Fin 32) (i : Fin 1024) : kOperand a (ix2 d i) = blockMat a d i :=
  shapeCast_1ab_ab_apply a _ d i

/-- The kernel's scores. -/
def kScores : FVec Ideal S1024x1024 .f32 :=
  matmul dot_S32x1024_S32x1024_S1024x1024_0_0_1_1_n_n none (kOperand a) (kOperand b) (constant S1024x1024 .f32 0x00000000#32)

theorem kScores_apply (i j : Fin 1024) : kScores a b (ix2 i j) = sim (blockMat a) (blockMat b) i j := by
  unfold kScores sim
  refine (scores_apply _ _ i j).trans (Finset.sum_congr rfl fun d _ => ?_)
  rw [kOperand_apply, kOperand_apply]

/-- The kernel's row maxima. -/
def kRowMax : FVec Ideal S1024 .f32 :=
  multiReduction .maximumf [1] S1024 (kScores a b) 0xFF800000#32 reduces_S1024x1024_S1024 (.inl rfl) rfl

theorem kRowMax_apply (i : Fin 1024) : kRowMax a b (ix1 i) = rowMax (blockMat a) (blockMat b) i := by
  unfold kRowMax rowMax
  refine (laneMax_apply _ _ _ _ _ i).trans ?_
  exact congrArg (fun f => (Finset.univ : Finset (Fin 1024)).fold max negInfW f) (funext fun j => kScores_apply a b i j)

/-- The kernel's shifted exponentials. -/
def kExpo : FVec Ideal S1024x1024 .f32 :=
  exp (subf (kScores a b)
    (broadcastTo S1024x1024 (shapeCast S1024x1 (kRowMax a b) shapeCasts_S1024_S1024x1) broadcasts_S1024x1_S1024x1024))

theorem kExpo_apply (i j : Fin 1024) : kExpo a b (ix2 i j) = expo (blockMat a) (blockMat b) i j := by
  unfold kExpo expo
  rw [exp_apply, subf_apply, kScores_apply, keepdims_apply, kRowMax_apply]

/-- The kernel's row sums. -/
def kRowSum : FVec Ideal S1024 .f32 :=
  multiReduction .add [1] S1024 (kExpo a b) 0x00000000#32 reduces_S1024x1024_S1024 (.inl rfl) rfl

theorem kRowSum_apply (i : Fin 1024) : kRowSum a b (ix1 i) = rowSum (blockMat a) (blockMat b) i := by
  unfold kRowSum rowSum
  refine (laneSum_apply _ _ _ _ _ i).trans (Finset.sum_congr rfl fun j _ => kExpo_apply a b i j)

/-- The kernel's softmax weights. -/
def kWeight : FVec Ideal S1024x1024 .f32 :=
  divf (kExpo a b)
    (broadcastTo S1024x1024 (shapeCast S1024x1 (kRowSum a b) shapeCasts_S1024_S1024x1) broadcasts_S1024x1_S1024x1024)

theorem kWeight_apply (i j : Fin 1024) : kWeight a b (ix2 i j) = weight (blockMat a) (blockMat b) i j := by
  unfold kWeight weight
  rw [divf_apply, kExpo_apply, keepdims_apply, kRowSum_apply]

/-- The kernel's attention output. -/
def kAttend : FVec Ideal S32x1024 .f32 :=
  matmul dot_S32x1024_S1024x1024_S32x1024_1_1_0_0_n_n none (kOperand a) (truncf .bf16 (kWeight a b) bitsLt_bf16_f32)
    (constant S32x1024 .f32 0x00000000#32)

theorem kAttend_apply (d : Fin 32) (i : Fin 1024) : kAttend a b (ix2 d i) = attend (blockMat a) (blockMat b) d i := by
  unfold kAttend attend
  refine (attend_apply _ _ d i).trans (Finset.sum_congr rfl fun j _ => ?_)
  rw [kOperand_apply, truncf_apply, kWeight_apply]

/-- The kernel's squared errors against the target block. -/
def kSqErr : FVec Ideal S32x1024 .f32 :=
  mulf (subf (kAttend a b) (shapeCast S32x1024 b' shapeCasts_S1x32x1024_S32x1024))
    (subf (kAttend a b) (shapeCast S32x1024 b' shapeCasts_S1x32x1024_S32x1024))

theorem kSqErr_apply (d : Fin 32) (i : Fin 1024) : kSqErr a b b (ix2 d i) = sqErr (blockMat a) (blockMat b) d i := by
  unfold kSqErr sqErr
  rw [mulf_apply, subf_apply, kAttend_apply, shapeCast_1ab_ab_apply]

/-- The kernel's sum of the squared errors: over the positions, then over the features, each kept as a unit axis. -/
def kHeadLoss : FVec Ideal S1x1 .f32 :=
  shapeCast S1x1
    (multiReduction .add [0] S1
      (shapeCast S32x1 (multiReduction .add [1] S32 (kSqErr a b b') 0x00000000#32 reduces_S32x1024_S32 (.inl rfl) rfl)
        shapeCasts_S32_S32x1)
      0x00000000#32 reduces_S32x1_S1 (.inl rfl) rfl)
    shapeCasts_S1_S1x1

theorem kHeadLoss_apply (u v : Fin 1) : kHeadLoss a b b (ix2 u v) = headLoss (blockMat a) (blockMat b) := by
  unfold kHeadLoss headLoss
  refine (shapeCast_a_1a_apply _ _ u v).trans ?_
  refine (rowSum_apply _ _ _ _ _ v).trans (Finset.sum_congr rfl fun d _ => ?_)
  refine (shapeCast_a_a1_apply _ _ d v).trans ?_
  refine (laneSum_apply _ _ _ _ _ d).trans (Finset.sum_congr rfl fun i _ => kSqErr_apply a b d i)

/-- The trip's payload is the running sum plus that. -/
theorem pay2_unfold (acc : FVec Ideal S1x1 .f32) : k0_pay2 (F := Ideal) acc a b b' = addf acc (kHeadLoss a b b') := rfl

end Trip

/-! ## The three payloads -/

/-- One trip adds its head's sum of squared errors to the running sum. -/
theorem pay2_eq (acc : FVec Ideal S1x1 .f32) (a b : Vec Ideal S1x32x1024 .f32) (y : S1x1.Idx) :
    k0_pay2 (F := Ideal) acc a b b y
      = acc y + Cert.AttnSpec.headLoss (fun d i => a (ix3 (0 : Fin 1) d i)) (fun d i => b (ix3 (0 : Fin 1) d i)) := by
  obtain ⟨u, v, rfl⟩ : ∃ (u v : Fin 1), y = ix2 u v := ⟨y 0, y 1, eq_ix2 y⟩
  rw [pay2_unfold, addf_apply, kHeadLoss_apply]

/-- The running sum starts from the zero word. -/
theorem pay1_eq (y : S1x1.Idx) : k0_pay1 (F := Ideal) y = Cert.AttnSpec.zeroW := rfl

/-- What is stored: the running sum over the 1024 entries of a tile, at every entry of the tile. -/
theorem pay3_eq (v : FVec Ideal S1x1 .f32) (j : S8x128.Idx) :
    k0_pay3 (F := Ideal) v j = Ideal.div (v (ix2 (0 : Fin 1) (0 : Fin 1))) Cert.AttnSpec.tileW := by
  unfold k0_pay3
  refine (broadcastTo_apply _ _ j (ix2 (0 : Fin 1) (0 : Fin 1)) fun ax => ?_).trans ?_
  · match ax with
    | ⟨0, _⟩ => rfl
    | ⟨1, _⟩ => rfl
  · rw [shapeCast_self]
    rfl

end Cert.HeadPayload

end
-- ==== Proof.SumLaws.lean ====
/-
  Two laws of sums over the extended reals that join the kernel's arrangement to the specification's.

  The kernel writes one head group's sum of squared errors S as 1024 copies of S / 1024, one per entry of an 8 x 128
  tile, and the host adds all entries of all tiles.  On the extended reals 1024 copies of x / 1024 add up to x for every
  x: for a real x this is arithmetic, and for an infinity the quotient and every partial sum are that same infinity.
  The sum over the 64 x 128 array of a value that depends only on the tile (the row divided by 8) is the sum over the
  8 tiles of the sum over a tile's entries.
-/
import proofs.«169583_j53412213293408_2_alg».proof.Proof.AttnSpec

noncomputable section

namespace Cert.AttnSpec

open Idealize.ShloMosaic Idealize.ShloMosaic.ValueIdx

/-- The tile word denotes the real 1024. -/
theorem tileW_eq : tileW = ((1024 : ℝ) : EReal) := by
  simp [Ideal.ofBits, Ideal.ieee, -EReal.coe_mul]; norm_num

/-- A value that is its own double is every positive multiple of itself. -/
theorem nsmul_eq_self_of_add_self {a : EReal} (h : a + a = a) : ∀ n : ℕ, 0 < n → n • a = a
  | 1, _ => one_nsmul a
  | n + 2, _ => by rw [succ_nsmul, nsmul_eq_self_of_add_self h (n + 1) (Nat.succ_pos n), h]

/-- 1024 copies of `x / 1024` add up to `x`, for every extended real `x`. -/
theorem nsmul_div_tile (x : EReal) : (1024 : ℕ) • Ideal.div x tileW = x := by
  rw [tileW_eq, Ideal.div_coe (by norm_num : (1024 : ℝ) ≠ 0)]
  induction x using EReal.rec with
  | bot =>
    rw [EReal.bot_mul_coe_of_pos (by norm_num)]
    exact nsmul_eq_self_of_add_self (EReal.bot_add ⊥) 1024 (by norm_num)
  | top =>
    rw [EReal.top_mul_coe_of_pos (by norm_num)]
    exact nsmul_eq_self_of_add_self EReal.top_add_top 1024 (by norm_num)
  | coe r =>
    rw [← EReal.coe_mul, ← EReal.coe_nsmul]
    congr 1
    rw [nsmul_eq_mul]
    push_cast
    ring

/-- The entries of one tile, each `x / 1024`, add up to `x`. -/
theorem tile_sum (x : EReal) : ∑ _r : Fin 8, ∑ _c : Fin 128, Ideal.div x tileW = x := by
  simp only [Finset.sum_const, Finset.card_univ, Fintype.card_fin, smul_smul]
  exact nsmul_div_tile x

/-- A sum over the 64 x 128 array of a value that depends only on the row divided by 8, tile by tile. -/
theorem sum_tiles (φ : ℕ → EReal) :
    ∑ j : (⟨2, ![64, 128]⟩ : Shape).Idx, φ ((j 0).val / 8) = ∑ g : Fin 8, ∑ _r : Fin 8, ∑ _c : Fin 128, φ g.val := by
  rw [sum_idx2, ← (finProdFinEquiv (m := 8) (n := 8)).sum_comp, Fintype.sum_prod_type]
  refine Finset.sum_congr rfl fun g _ => Finset.sum_congr rfl fun r _ => Finset.sum_congr rfl fun c _ => ?_
  congr 1
  show (r.val + 8 * g.val) / 8 = g.val
  have := r.isLt
  omega

/-- A running sum started at zero: after `n` steps it is the sum of the first `n` addends. -/
theorem running_sum (s f : ℕ → EReal) (h0 : s 0 = zeroW) (hs : ∀ n, s (n + 1) = s n + f n) :
    ∀ n, s n = ∑ k ∈ Finset.range n, f k
  | 0 => by rw [h0, Finset.sum_range_zero]; exact Ideal.ofBits_zero_f32
  | n + 1 => by rw [hs, running_sum s f h0 hs n, Finset.sum_range_succ]

end Cert.AttnSpec

end
-- ==== Proof.KernelValue.lean ====
/-
  The kernel's result is the specification's mean squared attention error.

  After eight trips the carried number is the sum of the eight heads' squared errors of the point's head group; every
  entry of the point's tile is that sum divided by the tile's 1024 entries; the tiles' entries add up to the total over
  all 64 heads, which the host divides by the element count.  The heads the trips load are heads of the argument arrays:
  trip k of point t reads head (t, k).
-/
import proofs.«169583_j53412213293408_2_alg».proof.Proof.KernelArray
import proofs.«169583_j53412213293408_2_alg».proof.Proof.HeadPayload
import proofs.«169583_j53412213293408_2_alg».proof.Proof.SumLaws

set_option maxRecDepth 16384

noncomputable section

open Idealize.ShloMosaic Idealize.ShloMosaic.TcCoe Idealize.SL.Sem
open Idealize.ShloMosaic.ValueIdx

namespace Cert.KernelIdeal.IdealValue

open Cert.KernelIdeal Cert.KernelIdeal.Gen Cert.KernelIdeal.RunValue Cert.KernelIdeal.ArrayValue Cert.AttnSpec

/-- Head `k` of an input block, as a 32 x 1024 matrix. -/
def blockHead (x : Vec Ideal S8x32x1024 .f32) (k : Fin 8) : Fin 32 → Fin 1024 → EReal := fun d i => x (ix3 k d i)

/-- The contribution of trip `n` (none past the last trip). -/
def tripLoss (x0 x1 : Vec Ideal S8x32x1024 .f32) (n : ℕ) : EReal :=
  if h : n < 8 then headLoss (blockHead x0 ⟨n, h⟩) (blockHead x1 ⟨n, h⟩) else 0

/-- One more trip adds that trip's head loss to the carried number. -/
theorem carried_succ (x0 x1 : Vec Ideal S8x32x1024 .f32) (n : ℕ) (y : S1x1.Idx) :
    carried (F := Ideal) x0 x1 (n + 1) y = carried (F := Ideal) x0 x1 n y + tripLoss x0 x1 n := by
  rw [carried]
  unfold tripLoss
  by_cases h : n < 8
  · have h' : n < k0_t1_loop.trips := by rw [trips_eq]; exact h
    rw [dif_pos h', dif_pos h, Cert.HeadPayload.pay2_eq]
    congr 2 <;> funext d i <;> exact slab_apply _ ⟨n, h'⟩ ⟨n, h⟩ rfl d i
  · have h' : ¬ n < k0_t1_loop.trips := by rw [trips_eq]; exact h
    rw [dif_neg h', dif_neg h, add_zero]

/-- After the last trip the carried number is the sum of the eight heads' losses. -/
theorem carried_last (x0 x1 : Vec Ideal S8x32x1024 .f32) (y : S1x1.Idx) :
    carried (F := Ideal) x0 x1 k0_t1_loop.trips y = ∑ k : Fin 8, headLoss (blockHead x0 k) (blockHead x1 k) := by
  rw [trips_eq, running_sum (fun n => carried (F := Ideal) x0 x1 n y) (tripLoss x0 x1)
    (Cert.HeadPayload.pay1_eq y) (fun n => carried_succ x0 x1 n y) 8, Finset.sum_range]
  refine Finset.sum_congr rfl fun k _ => ?_
  unfold tripLoss
  rw [dif_pos k.isLt]

variable (m : (ℓ : Loc nD τ sig) → Buf (Elt Ideal) ℓ) (ρ : Dev nD → PrngReg)

/-- The first argument array on core `c`. -/
abbrev arg0 (c : Dev nD) : A4.Idx → EReal := m ((c : Thread nD τ).loc main_arg0)
/-- The second argument array on core `c`. -/
abbrev arg1 (c : Dev nD) : A4.Idx → EReal := m ((c : Thread nD τ).loc main_arg1)

/-- Head `k` of point `t`'s first block is head `(t, k)` of the first argument. -/
theorem blockHead0 (c : Dev nD) (t : Fin cfg0.N) (k : Fin 8) :
    blockHead (iblk m c 0 t) k = headOf (arg0 m c) ⟨t.val, point_lt t⟩ k := by
  funext d i
  unfold blockHead headOf
  rw [iblk0_apply, entry_v0]
  exact reshape_apply _ ⟨t.val, point_lt t⟩ k d i (headIdx ⟨t.val, point_lt t⟩ k d i) rfl rfl rfl rfl

/-- Head `k` of point `t`'s second block is head `(t, k)` of the second argument. -/
theorem blockHead1 (c : Dev nD) (t : Fin cfg0.N) (k : Fin 8) :
    blockHead (iblk m c 1 t) k = headOf (arg1 m c) ⟨t.val, point_lt t⟩ k := by
  funext d i
  unfold blockHead headOf
  rw [iblk1_apply, entry_v1]
  exact reshape_apply _ ⟨t.val, point_lt t⟩ k d i (headIdx ⟨t.val, point_lt t⟩ k d i) rfl rfl rfl rfl

/-- One head group's sum of squared errors. -/
def groupLoss (X0 X1 : A4.Idx → EReal) (g : Fin 8) : EReal := ∑ k : Fin 8, headLoss (headOf X0 g k) (headOf X1 g k)

/-- Every entry of point `t`'s tile is group `t`'s loss over the tile's 1024 entries. -/
theorem tile_apply (c : Dev nD) (t : Fin cfg0.N) (y : S8x128.Idx) :
    outsAt0 m c t y = Ideal.div (groupLoss (arg0 m c) (arg1 m c) ⟨t.val, point_lt t⟩) tileW := by
  unfold outsAt0
  rw [out_eq, Cert.HeadPayload.pay3_eq, carried_last]
  unfold groupLoss
  simp only [blockHead0, blockHead1]

/-- The value of a tile's entries, by the tile's number (nothing past the eighth tile). -/
def tileEntry (X0 X1 : A4.Idx → EReal) (n : ℕ) : EReal :=
  if h : n < 8 then Ideal.div (groupLoss X0 X1 ⟨n, h⟩) tileW else 0

/-- An entry of the result array depends only on its tile. -/
theorem tiled_apply (c : Dev nD) (j : S64x128.Idx) :
    tiled m c j = tileEntry (arg0 m c) (arg1 m c) ((j 0).val / 8) := by
  have h0 : (j 0).val < 64 := (j 0).isLt
  unfold tiled tileEntry
  rw [tile_apply, dif_pos (by omega)]

/-- The result array's entries add up to the total over all heads. -/
theorem sum_tiled (c : Dev nD) : ∑ j : S64x128.Idx, tiled m c j = total (arg0 m c) (arg1 m c) := by
  rw [Finset.sum_congr rfl (fun j _ => tiled_apply m c j), sum_tiles]
  unfold total
  refine Finset.sum_congr rfl fun g _ => ?_
  unfold tileEntry
  rw [dif_pos g.isLt]
  exact tile_sum _

/-- The kernel's result is the mean squared error of the specification. -/
theorem result_eq (c : Dev nD) (i : S_.Idx) : result m c i = loss (arg0 m c) (arg1 m c) := by
  unfold result loss
  show FloatOps.hostDivf (Host.reduceAdd (tiled m c) (constant S_ .f32 0x00000000#32) reducesTo_S64x128_S_d0_1 h_S_ i)
      (constant (F := Ideal) S_ .f32 0x4A000000#32 i) = _
  simp only [Host.reduceAdd, Ideal.hostReduceAdd_def, Ideal.hostDivf_def]
  rw [Ideal.hostReduceAdd_total reducesTo_S64x128_S_d0_1 (fun b => b.elim0), sum_tiled]
  rfl

end Cert.KernelIdeal.IdealValue

end
-- ==== Proof.RefValue.lean ====
/-
  The reference program's result is the specification's mean squared attention error.

  The reference reads its two [8, 256, 32, 32] arrays as 8 x 8 heads of 32 features by 1024 positions (a reshape, then a
  transposition to positions by features), takes per head the scores, the softmax of each row of scores and the
  weighted sum of the first array's values, transposes and reshapes back, and averages the squared difference to the
  second array over all 2^21 elements.  Every operation is read at an index written in the coordinates (group g, head h,
  feature d, position i); the sum over the whole array is then re-indexed through the same coordinates.
-/
import proofs.«169583_j53412213293408_2_alg».proof.Proof.Gen.ReferenceIdeal.Read
import proofs.«169583_j53412213293408_2_alg».proof.Proof.AttnSpec

noncomputable section

namespace Cert.RefValue

open Cert.ReferenceIdeal Cert.ReferenceIdeal.Gen Cert.ReferenceIdeal.Read
open Idealize.ShloMosaic Idealize.ShloMosaic.ValueIdx

/-- The type of an input array: a function from the indices of shape [8, 256, 32, 32] to the extended reals. -/
abbrev Arr : Type := (⟨S8x256x32x32, .f32⟩ : BufTy).Contents (Elt Ideal)

/-! ## The index maps at coordinates -/

/-- The reshape [8, 256, 32, 32] -> [8, 8, 32, 1024] reads entry (g, h, d, i) at channel 32 h + d, row i / 32, column i % 32. -/
theorem idx_v0 (g h : Fin 8) (d : Fin 32) (i : Fin 1024) :
    idx_main_v0 (ix4 g h d i) = AttnSpec.headIdx g h d i := by
  have hg := g.isLt; have hh := h.isLt; have hd := d.isLt; have hi := i.isLt
  funext a
  apply Fin.ext
  match a with
  | ⟨0, _⟩ => show (((g.val * 8 + h.val) * 32 + d.val) * 1024 + i.val) / 262144 = g.val; omega
  | ⟨1, _⟩ => show (((g.val * 8 + h.val) * 32 + d.val) * 1024 + i.val) / 1024 % 256 = 32 * h.val + d.val; omega
  | ⟨2, _⟩ => show (((g.val * 8 + h.val) * 32 + d.val) * 1024 + i.val) / 32 % 32 = i.val / 32; omega
  | ⟨3, _⟩ => show (((g.val * 8 + h.val) * 32 + d.val) * 1024 + i.val) % 32 = i.val % 32; omega

/-- The transposition of the last two axes, read at (g, h, i, d). -/
theorem idx_v1 (g h : Fin 8) (i : Fin 1024) (d : Fin 32) :
    idx_main_v1 (ix4 g h i d) = ix4 g h d i :=
  funext fun a => match a with
    | ⟨0, _⟩ => rfl
    | ⟨1, _⟩ => rfl
    | ⟨2, _⟩ => rfl
    | ⟨3, _⟩ => rfl

/-- The transposition back, read at (g, h, d, i). -/
theorem idx_v19 (g h : Fin 8) (d : Fin 32) (i : Fin 1024) :
    idx_main_v19 (ix4 g h d i) = ix4 g h i d :=
  funext fun a => match a with
    | ⟨0, _⟩ => rfl
    | ⟨1, _⟩ => rfl
    | ⟨2, _⟩ => rfl
    | ⟨3, _⟩ => rfl

/-- The reshape back [8, 8, 32, 1024] -> [8, 256, 32, 32]: the entry at channel 32 h + d, row i / 32, column i % 32 is entry
    (g, h, d, i). -/
theorem idx_v20 (g h : Fin 8) (d : Fin 32) (i : Fin 1024) :
    idx_main_v20 (AttnSpec.headIdx g h d i) = ix4 g h d i := by
  have hg := g.isLt; have hh := h.isLt; have hd := d.isLt; have hi := i.isLt
  funext a
  apply Fin.ext
  match a with
  | ⟨0, _⟩ =>
    show (((g.val * 256 + (32 * h.val + d.val)) * 32 + i.val / 32) * 32 + i.val % 32) / 262144 = g.val; omega
  | ⟨1, _⟩ =>
    show (((g.val * 256 + (32 * h.val + d.val)) * 32 + i.val / 32) * 32 + i.val % 32) / 32768 % 8 = h.val; omega
  | ⟨2, _⟩ =>
    show (((g.val * 256 + (32 * h.val + d.val)) * 32 + i.val / 32) * 32 + i.val % 32) / 1024 % 32 = d.val; omega
  | ⟨3, _⟩ =>
    show (((g.val * 256 + (32 * h.val + d.val)) * 32 + i.val / 32) * 32 + i.val % 32) % 1024 = i.val; omega

/-- The two broadcasts of a per-row value along the row, read at (g, h, i, j): the row's index (g, h, i). -/
theorem idx_v11 (g h : Fin 8) (i j : Fin 1024) :
    idx_main_v10 (idx_main_v11 (ix4 g h i j)) = ix3 g h i :=
  funext fun a => match a with
    | ⟨0, _⟩ => rfl
    | ⟨1, _⟩ => rfl
    | ⟨2, _⟩ => rfl

theorem idx_v16 (g h : Fin 8) (i j : Fin 1024) :
    idx_main_v15 (idx_main_v16 (ix4 g h i j)) = ix3 g h i :=
  funext fun a => match a with
    | ⟨0, _⟩ => rfl
    | ⟨1, _⟩ => rfl
    | ⟨2, _⟩ => rfl

/-! ## The heads of the two arrays -/

section stages

variable (x0 x1 : Arr) (g h : Fin 8)

theorem v0_at (d : Fin 32) (i : Fin 1024) :
    val_main_v0 (F := Ideal) x0 (ix4 g h d i) = AttnSpec.headOf x0 g h d i := by
  rw [val_main_v0_apply, idx_v0]; rfl

theorem v2_at (d : Fin 32) (i : Fin 1024) :
    val_main_v2 (F := Ideal) x1 (ix4 g h d i) = AttnSpec.headOf x1 g h d i := by
  rw [val_main_v2_apply]
  exact congrArg x1 (idx_v0 g h d i)

theorem v4_at (d : Fin 32) (i : Fin 1024) :
    val_main_v4 (F := Ideal) x0 (ix4 g h d i) = AttnSpec.headOf x0 g h d i := by
  rw [val_main_v4_apply]
  exact congrArg x0 (idx_v0 g h d i)

/-- The queries: position i, feature d of head (g, h) of the first array. -/
theorem v1_at (i : Fin 1024) (d : Fin 32) :
    val_main_v1 (F := Ideal) x0 (ix4 g h i d) = AttnSpec.headOf x0 g h d i := by
  rw [val_main_v1_apply, idx_v1, v0_at]

/-- The keys: the same of the second array. -/
theorem v3_at (i : Fin 1024) (d : Fin 32) :
    val_main_v3 (F := Ideal) x1 (ix4 g h i d) = AttnSpec.headOf x1 g h d i := by
  rw [val_main_v3_apply]
  exact (congrArg (val_main_v2 (F := Ideal) x1) (idx_v1 g h i d)).trans (v2_at x1 g h d i)

/-- The values: the first array again. -/
theorem v5_at (i : Fin 1024) (d : Fin 32) :
    val_main_v5 (F := Ideal) x0 (ix4 g h i d) = AttnSpec.headOf x0 g h d i := by
  rw [val_main_v5_apply]
  exact (congrArg (val_main_v4 (F := Ideal) x0) (idx_v1 g h i d)).trans (v4_at x0 g h d i)

/-! ## Scores, row maximum, softmax -/

local notation "Q" => AttnSpec.headOf x0 g h
local notation "K" => AttnSpec.headOf x1 g h

/-- The score of position i against position j. -/
theorem v6_at (i j : Fin 1024) :
    val_main_v6 (F := Ideal) x0 x1 (ix4 g h i j) = AttnSpec.sim Q K i j := by
  rw [val_main_v6_apply]
  unfold AttnSpec.sim
  refine Finset.sum_congr rfl fun d _ => ?_
  have el : lidx_main_v6 (ix4 g h i j) d = ix4 g h i d :=
    funext fun a => match a with
      | ⟨0, _⟩ => rfl
      | ⟨1, _⟩ => rfl
      | ⟨2, _⟩ => rfl
      | ⟨3, _⟩ => rfl
  have er : ridx_main_v6 (ix4 g h i j) d = ix4 g h j d :=
    funext fun a => match a with
      | ⟨0, _⟩ => rfl
      | ⟨1, _⟩ => rfl
      | ⟨2, _⟩ => rfl
      | ⟨3, _⟩ => rfl
  rw [el, er, v1_at, v3_at]

/-- A maximum-reduction of a [8, 8, 1024, 1024] array along its last axis, at row (g, h, i): the fold of max over the row,
    started from the initial value. -/
theorem reduce_max_at (y : S8x8x1024x1024.Idx → EReal) (c : S_.Idx → EReal) (i : Fin 1024) :
    Host.reduce (FloatOps.maximumf (F := Ideal) (φ := .f32)) y c reducesTo_S8x8x1024x1024_S8x8x1024_d3 h_S_ (ix3 g h i)
      = (Finset.univ : Finset (Fin 1024)).fold max (c (Shape.Idx.first h_S_)) (fun j => y (ix4 g h i j)) := by
  rw [Host.reduce_eq_fold_single (FloatOps.maximumf (F := Ideal) (φ := .f32)) y c
    reducesTo_S8x8x1024x1024_S8x8x1024_d3 (by decide) h_S_ (ix3 g h i)]
  refine Finset.fold_congr fun j _ => ?_
  exact congrArg y (funext fun a => Fin.ext (by
    match a with
    | ⟨0, _⟩ => rfl
    | ⟨1, _⟩ => rfl
    | ⟨2, _⟩ => rfl
    | ⟨3, _⟩ => rfl))

/-- The largest score of row i. -/
theorem v7_at (i : Fin 1024) :
    val_main_v7 (F := Ideal) x0 x1 (ix3 g h i) = AttnSpec.rowMax Q K i := by
  unfold val_main_v7
  refine (reduce_max_at g h _ _ i).trans ?_
  unfold AttnSpec.rowMax
  exact Finset.fold_congr fun j _ => v6_at x0 x1 g h i j

/-- A maximum with the fold's own starting value changes nothing. -/
theorem max_fold_self {ι : Type} (s : Finset ι) (b : EReal) (f : ι → EReal) :
    max b (s.fold max b f) = s.fold max b f :=
  max_eq_right ((Finset.le_fold_max b).2 (Or.inl le_rfl))

/-- The maximum of the row maximum with the word of minus infinity is the row maximum. -/
theorem v9_at (i : Fin 1024) :
    val_main_v9 (F := Ideal) x0 x1 (ix3 g h i) = AttnSpec.rowMax Q K i := by
  rw [val_main_v9_apply, v7_at, val_main_v8_apply, val_main_cst_0_apply]
  exact max_fold_self _ _ _

theorem v11_at (i j : Fin 1024) :
    val_main_v11 (F := Ideal) x0 x1 (ix4 g h i j) = AttnSpec.rowMax Q K i := by
  rw [val_main_v11_apply, val_main_v10_apply, idx_v11, v9_at]

/-- The exponential of a score shifted by its row's maximum. -/
theorem v13_at (i j : Fin 1024) :
    val_main_v13 (F := Ideal) x0 x1 (ix4 g h i j) = AttnSpec.expo Q K i j := by
  rw [val_main_v13_apply, val_main_v12_apply, v6_at, v11_at]; rfl

/-- The sum of row i's exponentials; the word of zero it starts from adds nothing. -/
theorem v14_at (i : Fin 1024) :
    val_main_v14 (F := Ideal) x0 x1 (ix3 g h i) = AttnSpec.rowSum Q K i := by
  rw [val_main_v14_apply, val_main_cst_1_apply]
  show Ideal.ofBits .f32 0x00000000#32 + _ = _
  rw [Ideal.ofBits_zero_f32, zero_add]
  unfold AttnSpec.rowSum
  refine Finset.sum_congr rfl fun j _ => ?_
  have e : idx_main_v14 (ix3 g h i) j = ix4 g h i j :=
    funext fun a => match a with
      | ⟨0, _⟩ => rfl
      | ⟨1, _⟩ => rfl
      | ⟨2, _⟩ => rfl
      | ⟨3, _⟩ => rfl
  rw [e, v13_at]

theorem v16_at (i j : Fin 1024) :
    val_main_v16 (F := Ideal) x0 x1 (ix4 g h i j) = AttnSpec.rowSum Q K i := by
  rw [val_main_v16_apply, val_main_v15_apply, idx_v16, v14_at]

/-- The softmax weight of position j in row i. -/
theorem v17_at (i j : Fin 1024) :
    val_main_v17 (F := Ideal) x0 x1 (ix4 g h i j) = AttnSpec.weight Q K i j := by
  rw [val_main_v17_apply, v13_at, v16_at]; rfl

/-! ## The attention output and the squared error -/

/-- Feature d of the output at position i: the weights of row i against the values. -/
theorem v18_at (i : Fin 1024) (d : Fin 32) :
    val_main_v18 (F := Ideal) x0 x1 (ix4 g h i d) = AttnSpec.attend Q K d i := by
  rw [val_main_v18_apply]
  unfold AttnSpec.attend
  refine Finset.sum_congr rfl fun j _ => ?_
  have el : lidx_main_v18 (ix4 g h i d) j = ix4 g h i j :=
    funext fun a => match a with
      | ⟨0, _⟩ => rfl
      | ⟨1, _⟩ => rfl
      | ⟨2, _⟩ => rfl
      | ⟨3, _⟩ => rfl
  have er : ridx_main_v18 (ix4 g h i d) j = ix4 g h j d :=
    funext fun a => match a with
      | ⟨0, _⟩ => rfl
      | ⟨1, _⟩ => rfl
      | ⟨2, _⟩ => rfl
      | ⟨3, _⟩ => rfl
  rw [el, er, v17_at, v5_at]
  exact mul_comm _ _

theorem v20_at (d : Fin 32) (i : Fin 1024) :
    val_main_v20 (F := Ideal) x0 x1 (AttnSpec.headIdx g h d i) = AttnSpec.attend Q K d i := by
  rw [val_main_v20_apply, idx_v20, val_main_v19_apply, idx_v19, v18_at]

/-- The squared difference of the output to the second array. -/
theorem v22_at (d : Fin 32) (i : Fin 1024) :
    val_main_v22 (F := Ideal) x0 x1 (AttnSpec.headIdx g h d i) = AttnSpec.sqErr Q K d i := by
  rw [val_main_v22_apply, val_main_v21_apply, v20_at]; rfl

end stages

/-! ## The sum over the whole array, by coordinates -/

/-- The indices of shape [8, 256, 32, 32] are the quadruples (g, h, d, i): channel c = 32 h + d, position i = 32 y + x. -/
def headEquiv : Fin 8 × Fin 8 × Fin 32 × Fin 1024 ≃ S8x256x32x32.Idx where
  toFun p := AttnSpec.headIdx p.1 p.2.1 p.2.2.1 p.2.2.2
  invFun j :=
    (⟨(j 0).val, (j 0).isLt⟩,
     ⟨(j 1).val / 32, by have h1 : (j 1).val < 256 := (j 1).isLt; omega⟩,
     ⟨(j 1).val % 32, by omega⟩,
     ⟨(j 2).val * 32 + (j 3).val, by
        have h2 : (j 2).val < 32 := (j 2).isLt; have h3 : (j 3).val < 32 := (j 3).isLt; omega⟩)
  left_inv := by
    rintro ⟨g, h, d, i⟩
    have hh := h.isLt; have hd := d.isLt; have hi := i.isLt
    refine Prod.ext rfl (Prod.ext (Fin.ext ?_) (Prod.ext (Fin.ext ?_) (Fin.ext ?_)))
    · show (32 * h.val + d.val) / 32 = h.val; omega
    · show (32 * h.val + d.val) % 32 = d.val; omega
    · show i.val / 32 * 32 + i.val % 32 = i.val; omega
  right_inv := by
    intro j
    have h1 : (j 1).val < 256 := (j 1).isLt
    have h2 : (j 2).val < 32 := (j 2).isLt
    have h3 : (j 3).val < 32 := (j 3).isLt
    funext a
    apply Fin.ext
    match a with
    | ⟨0, _⟩ => rfl
    | ⟨1, _⟩ => show 32 * ((j 1).val / 32) + (j 1).val % 32 = (j 1).val; omega
    | ⟨2, _⟩ => show ((j 2).val * 32 + (j 3).val) / 32 = (j 2).val; omega
    | ⟨3, _⟩ => show ((j 2).val * 32 + (j 3).val) % 32 = (j 3).val; omega

/-- A sum over the whole array is the sum over groups, heads, features and positions. -/
theorem sum_heads (f : S8x256x32x32.Idx → EReal) :
    ∑ j : S8x256x32x32.Idx, f j
      = ∑ g : Fin 8, ∑ h : Fin 8, ∑ d : Fin 32, ∑ i : Fin 1024, f (AttnSpec.headIdx g h d i) := by
  rw [← Equiv.sum_comp headEquiv f, Fintype.sum_prod_type]
  refine Finset.sum_congr rfl fun g _ => ?_
  rw [Fintype.sum_prod_type]
  refine Finset.sum_congr rfl fun h _ => ?_
  rw [Fintype.sum_prod_type]
  rfl

/-! ## The result -/

/-- The reference's result is the mean squared attention error of the specification. -/
theorem ref_loss (x0 x1 : (⟨S8x256x32x32, .f32⟩ : BufTy).Contents (Elt Ideal)) (i : S_.Idx) :
    val_main_v24 (F := Ideal) x0 x1 i = AttnSpec.loss x0 x1 := by
  rw [val_main_v24_apply, val_main_v23_apply, val_main_cst_2_apply, val_main_cst_3_apply, sum_heads]
  unfold AttnSpec.loss AttnSpec.total AttnSpec.headLoss
  refine congrArg (fun t => Ideal.div (AttnSpec.zeroW + t) AttnSpec.countW) ?_
  refine Finset.sum_congr rfl fun g _ => Finset.sum_congr rfl fun h _ =>
    Finset.sum_congr rfl fun d _ => Finset.sum_congr rfl fun j _ => ?_
  exact v22_at x0 x1 g h d j

end Cert.RefValue

end
-- ==== Proof.lean ====
/-
  The kernel computes the mean squared error between softmax attention of the first input over itself and the second
  input, and so does the reference; here the two are proved to be one function of the inputs over the extended reals.

  The inputs are two [8, 256, 32, 32] arrays, read as 8 x 8 heads of 32 features by 1024 positions.  Per head, with q the
  head of the first input and k the head of the second, the scores are q^T k, each row of scores is turned into softmax
  weights (the exponential of the score minus the row's maximum, over the row's sum of these), the output is the
  weighted sum of q's columns, and the error is the squared difference to k.  The result is the sum of all errors
  divided by the number 2^21 of elements (Proof/AttnSpec.lean).

  The reference does this on whole arrays, transposing heads to positions-by-features and back, and sums all 2^21
  squared differences at once (Proof/RefValue.lean).  The kernel keeps heads as features-by-positions, visits one batch
  entry's eight heads per grid point in a loop that carries the running sum of squared errors, spreads that sum S over
  an 8 x 128 output tile as 1024 copies of S / 1024, and the host adds all tiles' entries and divides by 2^21
  (Proof/HeadPayload.lean: one trip's arithmetic; Proof/KernelRun.lean: the loop and the tile; Proof/KernelArray.lean:
  the tiles as one array, and the host's sum; Proof/KernelValue.lean: the result).  The two meet because sums of
  extended reals may be regrouped freely, a product commutes, and 1024 copies of S / 1024 add up to S for every extended
  real S (Proof/SumLaws.lean).  Both sides take the same maximum, exponential and quotient of the same scores, so no
  property of the inputs beyond the programs' own arithmetic is used; the narrowing of the kernel's matrix operands to
  sixteen bits is the identity on extended reals.

  The idealized kernel is the kernel's own text read over the extended reals (no operation was rewritten), so there is
  nothing to preserve; the three frames are the generated ones, the reference's being its generated run with the result
  dropped.
-/
import proofs.«169583_j53412213293408_2_alg».proof.Defs
import proofs.«169583_j53412213293408_2_alg».proof.Proof.Gen.Kernel
import proofs.«169583_j53412213293408_2_alg».proof.Proof.Gen.Kernel.Skeleton
import proofs.«169583_j53412213293408_2_alg».proof.Proof.Gen.Kernel.Loops
import proofs.«169583_j53412213293408_2_alg».proof.Proof.Gen.Kernel.Launch
import proofs.«169583_j53412213293408_2_alg».proof.Proof.Gen.Kernel.Points
import proofs.«169583_j53412213293408_2_alg».proof.Proof.Gen.Kernel.Frame
import proofs.«169583_j53412213293408_2_alg».proof.Proof.Gen.KernelIdeal
import proofs.«169583_j53412213293408_2_alg».proof.Proof.Gen.KernelIdeal.Skeleton
import proofs.«169583_j53412213293408_2_alg».proof.Proof.Gen.KernelIdeal.Loops
import proofs.«169583_j53412213293408_2_alg».proof.Proof.Gen.KernelIdeal.Launch
import proofs.«169583_j53412213293408_2_alg».proof.Proof.Gen.KernelIdeal.Points
import proofs.«169583_j53412213293408_2_alg».proof.Proof.Gen.KernelIdeal.Frame
import proofs.«169583_j53412213293408_2_alg».proof.Proof.Gen.ReferenceIdeal
import proofs.«169583_j53412213293408_2_alg».proof.Proof.Gen.ReferenceIdeal.Run
import proofs.«169583_j53412213293408_2_alg».proof.Proof.Gen.ReferenceIdeal.Read
import proofs.«169583_j53412213293408_2_alg».proof.Proof.Gen.Pre_finite_inputs
import proofs.«169583_j53412213293408_2_alg».proof.Proof.KernelValue
import proofs.«169583_j53412213293408_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on the two inputs, the kernel's result and the reference's are both the specification's
    mean squared error of those inputs. -/
theorem algebraic : Cert.algebraic_KernelIdeal_ReferenceIdeal := by
  intro m ρ m' ρ' _ hagree
  refine ⟨fun c => Cert.KernelIdeal.ArrayValue.result m c, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2]
  funext i
  rw [Cert.RefValue.ref_loss]
  exact (Cert.KernelIdeal.IdealValue.result_eq m c i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
